-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S128x128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S800000 32) (main_arg2 : IVec S800000 32) (main_arg3 : FVec F S800000x32 .f32) (main_arg4 : FVec F S160x128 .f32) (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg3
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x128 .f32 := Host.absf main_arg4
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S800000 : Shape := ⟨1, ![800000]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S32x128 : Shape := ⟨2, ![32, 128]⟩
abbrev S1x128 : Shape := ⟨2, ![1, 128]⟩
abbrev S1x64 : Shape := ⟨2, ![1, 64]⟩
abbrev S6400x128 : Shape := ⟨2, ![6400, 128]⟩
abbrev S6400x32 : Shape := ⟨2, ![6400, 32]⟩
abbrev S6400x64 : Shape := ⟨2, ![6400, 64]⟩
abbrev S64x128 : Shape := ⟨2, ![64, 128]⟩
abbrev S5000x64 : Shape := ⟨2, ![5000, 64]⟩
abbrev S5000x128 : Shape := ⟨2, ![5000, 128]⟩

abbrev nBuf : Space → Nat
  | .hbm => 46
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000x32, .f32⟩
  | .hbm, ⟨4, _⟩ => ⟨S160x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S50000x64, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .bf16⟩
  | .hbm, ⟨31, _⟩ => ⟨S800000x128, .bf16⟩
  | .hbm, ⟨32, _⟩ => ⟨S128x128, .f32⟩
  | .hbm, ⟨33, _⟩ => ⟨S32x128, .f32⟩
  | .hbm, ⟨34, _⟩ => ⟨S1x128, .f32⟩
  | .hbm, ⟨35, _⟩ => ⟨S1x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S64x128, .f32⟩
  | .hbm, ⟨42, _⟩ => ⟨S64x128, .f32⟩
  | .hbm, ⟨43, _⟩ => ⟨S1x128, .f32⟩
  | .hbm, ⟨44, _⟩ => ⟨S1x64, .f32⟩
  | .hbm, ⟨45, _⟩ => ⟨S50000x64, .f32⟩
  | .local _ .vmem, ⟨0, _⟩ => ⟨S6400x128, .bf16⟩
  | .local _ .vmem, ⟨1, _⟩ => ⟨S6400x128, .bf16⟩
  | .local _ .vmem, ⟨2, _⟩ => ⟨S6400x32, .f32⟩
  | .local _ .vmem, ⟨3, _⟩ => ⟨S6400x32, .f32⟩
  | .local _ .vmem, ⟨4, _⟩ => ⟨S128x128, .f32⟩
  | .local _ .vmem, ⟨5, _⟩ => ⟨S32x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S6400x64, .f32⟩
  | .local _ .vmem, ⟨10, _⟩ => ⟨S6400x64, .f32⟩
  | .local _ .vmem, ⟨11, _⟩ => ⟨S5000x64, .bf16⟩
  | .local _ .vmem, ⟨12, _⟩ => ⟨S5000x64, .bf16⟩
  | .local _ .vmem, ⟨13, _⟩ => ⟨S5000x64, .f32⟩
  | .local _ .vmem, ⟨14, _⟩ => ⟨S5000x64, .f32⟩
  | .local _ .vmem, ⟨15, _⟩ => ⟨S64x128, .f32⟩
  | .local _ .vmem, ⟨16, _⟩ => ⟨S64x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S160x128_S128x128_0_0 : S160x128.Slices ![0, 0] S128x128
  slices_S160x128_S32x128_128_0 : S160x128.Slices ![128, 0] S32x128
  shapeCasts_S128_S1x128 : S128.ShapeCasts S1x128
  shapeCasts_S64_S1x64 : S64.ShapeCasts S1x64
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x32_S6400x32_0_0 : ∀ a, (![0, 0] : Fin 2 → Nat) a + S6400x32.size a ≤ S6400x32.size a
  h_S6400x32 : 0 < S6400x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x64_S6400x64_0_0 : ∀ a, (![0, 0] : Fin 2 → Nat) a + S6400x64.size a ≤ S6400x64.size a
  h_S6400x64 : 0 < S6400x64.numel
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S6400x128_S128x128_S6400x128_1_0_0_1_n_n_wf : DotDims.WF S6400x128 S128x128 S6400x128 [1] [0] [0] [1] [] []
  dot_S6400x32_S32x128_S6400x128_1_0_0_1_n_n_wf : DotDims.WF S6400x32 S32x128 S6400x128 [1] [0] [0] [1] [] []
  dot_S6400x128_S128x64_S6400x64_1_0_0_1_n_n_wf : DotDims.WF S6400x128 S128x64 S6400x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S800000x32.size a
  hwx0_1 : ∀ i : grid0.Coords, EltTy.bits .f32 = 32 ∨ (Rect.block (s := S800000x32) S6400x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S800000x64.size a
  hwx0_7 : ∀ i : grid0.Coords, EltTy.bits .f32 = 32 ∨ (Rect.block (s := S800000x64) S6400x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .bf16 = 32 ∨ (Rect.block (s := S50000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v15) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000x32, .f32⟩
  | .hbm, ⟨4, _⟩ => ⟨S160x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x160, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x160_S160x128_S800000x128_1_0_0_1_n_n_wf : DotDims.WF S800000x160 S160x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KerRun.lean ====
/-
  The idealized kernel's run with its result named.

  Every weakly fair execution of the program terminates without a fault, and in its final state the result buffer
  holds the contents the last segment boundary assigns to it, while the twelve argument arrays are as launched. The
  boundary contents are the fold through the program's four segments — the host operations before the first pallas
  call, that call, the host operations between the calls, the second call — so what the result buffer holds is what
  the second call's write-backs leave in its result array.
-/
import proofs.«113393_j27728308863843_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Named

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.Perceptron.lean ====
/-
  A two-layer perceptron on extended reals, in the two arrangements the two programs use for its first layer.

  One band: the input row z has d entries and the first layer is one product with a [d, h] matrix,
      oneBand z W b W2 c j = ( ∑ k, max ( ∑ a, z a · W a k + b k ) 0 · W2 k j ) + c j .
  Two bands: the input row is given as two rows x (p entries) and y (q entries) and the weight matrix as its first p
  rows and its last q rows, the two partial products added before the bias,
      twoBand x y Wa Wb b W2 c j = ( ∑ k, max ( ( ∑ a, x a · Wa a k + ∑ a, y a · Wb a k ) + b k ) 0 · W2 k j ) + c j .
  When x, y are the two ranges of z and Wa, Wb the two row ranges of W the two agree: a sum over p + q indices is the
  sum over the first p plus the sum over the last q, which holds in any commutative additive monoid, so also where
  entries are infinite.
-/
import Mathlib.Algebra.BigOperators.Fin
import Mathlib.Data.EReal.Basic

noncomputable section

open scoped BigOperators

namespace Perceptron

/-- The perceptron with its first layer as one product. -/
def oneBand {d h o : ℕ} (z : Fin d → EReal) (W : Fin d → Fin h → EReal) (b : Fin h → EReal)
    (W2 : Fin h → Fin o → EReal) (c : Fin o → EReal) (j : Fin o) : EReal :=
  (∑ k : Fin h, max (∑ a : Fin d, z a * W a k + b k) 0 * W2 k j) + c j

/-- The perceptron with its first layer as two partial products over two bands of the input row. -/
def twoBand {p q h o : ℕ} (x : Fin p → EReal) (y : Fin q → EReal) (Wa : Fin p → Fin h → EReal) (Wb : Fin q → Fin h → EReal)
    (b : Fin h → EReal) (W2 : Fin h → Fin o → EReal) (c : Fin o → EReal) (j : Fin o) : EReal :=
  (∑ k : Fin h, max ((∑ a : Fin p, x a * Wa a k + ∑ a : Fin q, y a * Wb a k) + b k) 0 * W2 k j) + c j

/-- The two arrangements agree when the bands are the two ranges of one row and of one weight matrix. -/
theorem twoBand_eq_oneBand {p q h o : ℕ} (z : Fin (p + q) → EReal) (W : Fin (p + q) → Fin h → EReal) (b : Fin h → EReal)
    (W2 : Fin h → Fin o → EReal) (c : Fin o → EReal) (j : Fin o) :
    twoBand (fun a => z (Fin.castAdd q a)) (fun a => z (Fin.natAdd p a)) (fun a k => W (Fin.castAdd q a) k)
        (fun a k => W (Fin.natAdd p a) k) b W2 c j
      = oneBand z W b W2 c j := by
  unfold twoBand oneBand
  simp only [Fin.sum_univ_add]

/-- Equal bands, weights, biases and column give equal values. -/
theorem twoBand_congr {p q h o : ℕ} {x x' : Fin p → EReal} {y y' : Fin q → EReal} {Wa Wa' : Fin p → Fin h → EReal}
    {Wb Wb' : Fin q → Fin h → EReal} {b b' : Fin h → EReal} {W2 W2' : Fin h → Fin o → EReal} {c c' : Fin o → EReal}
    {j j' : Fin o} (hx : ∀ a, x a = x' a) (hy : ∀ a, y a = y' a) (hWa : ∀ a k, Wa a k = Wa' a k)
    (hWb : ∀ a k, Wb a k = Wb' a k) (hb : ∀ k, b k = b' k) (hW2 : ∀ k a, W2 k a = W2' k a) (hc : ∀ a, c a = c' a)
    (hj : j = j') : twoBand x y Wa Wb b W2 c j = twoBand x' y' Wa' Wb' b' W2' c' j' := by
  obtain rfl : x = x' := funext hx
  obtain rfl : y = y' := funext hy
  obtain rfl : Wa = Wa' := funext fun a => funext (hWa a)
  obtain rfl : Wb = Wb' := funext fun a => funext (hWb a)
  obtain rfl : b = b' := funext hb
  obtain rfl : W2 = W2' := funext fun a => funext (hW2 a)
  obtain rfl : c = c' := funext hc
  rw [hj]

/-- The two arrangements agree when each band, weight band, bias, second-layer weight and the column of the one
    is, entry by entry, the corresponding range or entry of the other. -/
theorem twoBand_eq_oneBand_of {p q h o : ℕ} (z : Fin (p + q) → EReal) (W : Fin (p + q) → Fin h → EReal)
    {x : Fin p → EReal} {y : Fin q → EReal} {Wa : Fin p → Fin h → EReal} {Wb : Fin q → Fin h → EReal}
    {b b' : Fin h → EReal} {W2 W2' : Fin h → Fin o → EReal} {c c' : Fin o → EReal} {j j' : Fin o}
    (hx : ∀ a, x a = z (Fin.castAdd q a)) (hy : ∀ a, y a = z (Fin.natAdd p a))
    (hWa : ∀ a k, Wa a k = W (Fin.castAdd q a) k) (hWb : ∀ a k, Wb a k = W (Fin.natAdd p a) k)
    (hb : ∀ k, b k = b' k) (hW2 : ∀ k a, W2 k a = W2' k a) (hc : ∀ a, c a = c' a) (hj : j = j') :
    twoBand x y Wa Wb b W2 c j = oneBand z W b' W2' c' j' := by
  rw [← twoBand_eq_oneBand]
  exact twoBand_congr hx hy hWa hWb hb hW2 hc hj

end Perceptron

end
-- ==== Proof.KerPayload.lean ====
/-
  The two kernel bodies' arithmetic, read at one entry of the stored block, at the ideal values.

  Each body is a two-layer perceptron on the rows of its block with the first layer's weight matrix given in two
  row bands (Perceptron.twoBand): for the row r of the block and the output column j the stored value is
      ( ∑ k, max ( ( ∑ q, x r q · Wa q k  +  ∑ q, y r q · Wb q k )  +  b k ) 0  ·  W2 k j )  +  c j .
  A change of float format is the identity on extended reals, a matrix product into the zero accumulator is the
  plain sum over the shared coordinate, and a bias row broadcast over the block reads the row's entry.
-/
import proofs.«113393_j27728308863843_2_alg».proof.Proof.Gen.KernelIdeal.Skeleton
import proofs.«113393_j27728308863843_2_alg».proof.Proof.LibContract
import proofs.«113393_j27728308863843_2_alg».proof.Proof.Perceptron
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Cert.KernelIdeal Cert.KernelIdeal.Gen Idealize.ShloMosaic Idealize.ShloMosaic.ValueIdx Idealize.ShloMosaic.Contract2
open Perceptron

/-- A product of a [n, K] block with a [K, m] matrix into the zero accumulator, at (a, c): the sum over the shared
    coordinate. -/
theorem matmul_zero_ix2 {n K m : ℕ} {φ₁ φ₂ : FTy}
    (D : DotDims (⟨2, ![n, K]⟩ : Shape) (⟨2, ![K, m]⟩ : Shape) (⟨2, ![n, m]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : FVec Ideal (⟨2, ![n, K]⟩ : Shape) φ₁) (r : FVec Ideal (⟨2, ![K, m]⟩ : Shape) φ₂) (a : Fin n) (c : Fin m) :
    FloatOps.matmul D none l r (constant (⟨2, ![n, m]⟩ : Shape) .f32 0x00000000#32) (ix2 a c)
      = ∑ k : Fin K, l (ix2 a k) * r (ix2 k c) :=
  (Ideal.matmul_constant_zero_apply D none l r (ix2 a c)).trans
    (sum_contr_eq_sum_fin (M := EReal) D hr hs hlc hrc hl0 hr1 l r (ix2 a c))

/-- The edge body's stored block at row `r`, column `j`: the two-band perceptron of row `r` of the gathered
    endpoint features (band one, 128 wide) and of the edge features (band two, 32 wide). -/
theorem edge_payload_apply (v0 : Vec Ideal S6400x128 .bf16) (v2 : Vec Ideal S6400x32 .f32) (v4 : Vec Ideal S128x128 .f32)
    (v7 : Vec Ideal S32x128 .f32) (v13 : Vec Ideal S1x128 .f32) (v20 : Vec Ideal S128x64 .f32) (v23 : Vec Ideal S1x64 .f32)
    (r : Fin 6400) (j : Fin 64) :
    k0_pay1 (F := Ideal) v0 v2 v4 v7 v13 v20 v23 (ix2 r j)
      = twoBand (fun a => v0 (ix2 r a)) (fun a => v2 (ix2 r a)) (fun a k => v4 (ix2 a k)) (fun a k => v7 (ix2 a k))
          (fun k => v13 (ix2 (0 : Fin 1) k)) (fun k c => v20 (ix2 k c)) (fun c => v23 (ix2 (0 : Fin 1) c)) j := by
  unfold k0_pay1 twoBand
  refine congrArg₂ (· + ·) ?_ ?_
  · refine (matmul_zero_ix2 dot_S6400x128_S128x64_S6400x64_1_0_0_1_n_n rfl rfl rfl rfl (fun _ _ => rfl) (fun _ _ => rfl) _ _ r j).trans ?_
    refine Finset.sum_congr rfl fun k _ => ?_
    refine congrArg₂ (· * ·) ?_ rfl
    refine congrArg₂ max ?_ Ideal.ofBits_zero_f32
    refine congrArg₂ (· + ·) (congrArg₂ (· + ·) ?_ ?_) ?_
    · refine (matmul_zero_ix2 dot_S6400x128_S128x128_S6400x128_1_0_0_1_n_n rfl rfl rfl rfl (fun _ _ => rfl) (fun _ _ => rfl) _ _ r k).trans ?_
      exact Finset.sum_congr rfl fun a _ => congrArg₂ (· * ·)
        (congrFun (shapeCast_self v0 shapeCasts_S6400x128_S6400x128) _) (congrFun (shapeCast_self v4 shapeCasts_S128x128_S128x128) _)
    · refine (matmul_zero_ix2 dot_S6400x32_S32x128_S6400x128_1_0_0_1_n_n rfl rfl rfl rfl (fun _ _ => rfl) (fun _ _ => rfl) _ _ r k).trans ?_
      exact Finset.sum_congr rfl fun a _ => congrArg₂ (· * ·) rfl (congrFun (shapeCast_self v7 shapeCasts_S32x128_S32x128) _)
    · exact (broadcastTo_1b_ab_apply _ broadcasts_S1x128_S6400x128 r k).trans (congrFun (shapeCast_self v13 shapeCasts_S1x128_S1x128) _)
  · exact (broadcastTo_1b_ab_apply _ broadcasts_S1x64_S6400x64 r j).trans (congrFun (shapeCast_self v23 shapeCasts_S1x64_S1x64) _)

/-- The node body's stored block at row `r`, column `j`: the two-band perceptron of row `r` of the node features
    (band one) and of the aggregated messages (band two), each 64 wide. -/
theorem node_payload_apply (v0 : Vec Ideal S5000x64 .bf16) (v2 : Vec Ideal S5000x64 .f32) (v5 : Vec Ideal S64x128 .f32)
    (v8 : Vec Ideal S64x128 .f32) (v14 : Vec Ideal S1x128 .f32) (v21 : Vec Ideal S128x64 .f32) (v24 : Vec Ideal S1x64 .f32)
    (r : Fin 5000) (j : Fin 64) :
    k1_pay1 (F := Ideal) v0 v2 v5 v8 v14 v21 v24 (ix2 r j)
      = twoBand (fun a => v0 (ix2 r a)) (fun a => v2 (ix2 r a)) (fun a k => v5 (ix2 a k)) (fun a k => v8 (ix2 a k))
          (fun k => v14 (ix2 (0 : Fin 1) k)) (fun k c => v21 (ix2 k c)) (fun c => v24 (ix2 (0 : Fin 1) c)) j := by
  unfold k1_pay1 twoBand
  refine congrArg₂ (· + ·) ?_ ?_
  · refine (matmul_zero_ix2 dot_S5000x128_S128x64_S5000x64_1_0_0_1_n_n rfl rfl rfl rfl (fun _ _ => rfl) (fun _ _ => rfl) _ _ r j).trans ?_
    refine Finset.sum_congr rfl fun k _ => ?_
    refine congrArg₂ (· * ·) ?_ rfl
    refine congrArg₂ max ?_ Ideal.ofBits_zero_f32
    refine congrArg₂ (· + ·) (congrArg₂ (· + ·) ?_ ?_) ?_
    · refine (matmul_zero_ix2 dot_S5000x64_S64x128_S5000x128_1_0_0_1_n_n rfl rfl rfl rfl (fun _ _ => rfl) (fun _ _ => rfl) _ _ r k).trans ?_
      exact Finset.sum_congr rfl fun a _ => congrArg₂ (· * ·)
        (congrFun (shapeCast_self v0 shapeCasts_S5000x64_S5000x64) _) (congrFun (shapeCast_self v5 shapeCasts_S64x128_S64x128) _)
    · refine (matmul_zero_ix2 dot_S5000x64_S64x128_S5000x128_1_0_0_1_n_n rfl rfl rfl rfl (fun _ _ => rfl) (fun _ _ => rfl) _ _ r k).trans ?_
      exact Finset.sum_congr rfl fun a _ => congrArg₂ (· * ·)
        (congrFun (shapeCast_self v2 shapeCasts_S5000x64_S5000x64) _) (congrFun (shapeCast_self v8 shapeCasts_S64x128_S64x128) _)
    · exact (broadcastTo_1b_ab_apply _ broadcasts_S1x128_S5000x128 r k).trans (congrFun (shapeCast_self v14 shapeCasts_S1x128_S1x128) _)
  · exact (broadcastTo_1b_ab_apply _ broadcasts_S1x64_S5000x64 r j).trans (congrFun (shapeCast_self v24 shapeCasts_S1x64_S1x64) _)

end Cert.KernelIdeal.Bodies

end
-- ==== Proof.EdgeBlocks.lean ====
/-
  The edge stage's result array, from its blocks.

  The first pallas call walks the 800000 edges in 125 blocks of 6400 rows; point t reads rows 6400 t … 6400 t + 6399
  of the two per-edge inputs, the whole of the five weight and bias arrays, and writes back block t of the result.
  So the array the region leaves is, at every (e, j), the two-band perceptron of row e of the per-edge inputs:
  what a point writes back is that function read through its block, and the 125 blocks cover the array (row e lies
  in block e / 6400). Everything is stated at whatever the buffers hold when the region is entered.
-/
import proofs.«113393_j27728308863843_2_alg».proof.Proof.Gen.KernelIdeal.Frame
import proofs.«113393_j27728308863843_2_alg».proof.Proof.KerPayload

set_option maxRecDepth 16384

noncomputable section

open scoped BigOperators

namespace Cert.KernelIdeal.EdgeBlocks

open Cert.KernelIdeal Cert.KernelIdeal.Gen Idealize.ShloMosaic Idealize.ShloMosaic.TcCoe Idealize.ShloMosaic.ValueIdx Idealize.SL.Sem
open Idealize.ShloMosaic.Pipeline (Dat Cfg Window)
open Perceptron Cert.KernelIdeal.Bodies

/-- The result of the edge stage as one function of the seven arrays it reads. -/
def edgeArray (X : S800000x128.Idx → EReal) (Y : S800000x32.Idx → EReal) (Wa : S128x128.Idx → EReal)
    (Wb : S32x128.Idx → EReal) (b : S1x128.Idx → EReal) (W2 : S128x64.Idx → EReal) (cc : S1x64.Idx → EReal) :
    S800000x64.Idx → EReal := fun i =>
  twoBand (fun a : Fin 128 => X (ix2 (⟨(i 0).val, (i 0).isLt⟩ : Fin 800000) a))
    (fun a : Fin 32 => Y (ix2 (⟨(i 0).val, (i 0).isLt⟩ : Fin 800000) a))
    (fun (a : Fin 128) (k : Fin 128) => Wa (ix2 a k)) (fun (a : Fin 32) (k : Fin 128) => Wb (ix2 a k))
    (fun k : Fin 128 => b (ix2 (0 : Fin 1) k)) (fun (k : Fin 128) (c : Fin 64) => W2 (ix2 k c))
    (fun c : Fin 64 => cc (ix2 (0 : Fin 1) c)) (⟨(i 1).val, (i 1).isLt⟩ : Fin 64)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two per-edge inputs move with the result's block along the rows, every
    other block index is zero. -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 124 :=
  (by decide +kernel : ∀ t : Fin grid0.N, _)

/-- Every row block is some point's. -/
theorem index_onto : ∀ q0 : Fin 125, ∃ t : Fin cfg0.N, win0_7.index t = ![q0.val, 0] :=
  (by decide +kernel : ∀ q0 : Fin 125, ∃ t : Fin grid0.N, win0_7.index t = ![q0.val, 0])

/-- What point `t` writes back is block `t` of `edgeArray` of the arrays as the region finds them. -/
theorem flushed_eq (c : Dev nD) (t : Fin cfg0.N) :
    (dat0 V c).flushed 7 t = ((cfg0.win 7).blk t).view.read (Elt Ideal)
      (edgeArray (V c main_v15) (V c main_arg3) (V c main_v16) (V c main_v17) (V c main_v18) (V c main_arg6) (V c main_v19)) := by
  show (cfg0.win 7).cut (grid0.coords t) ((dat0 V c).after 7 t) = _
  rw [after0_7]
  unfold out0_7
  rw [View.canon_unit_zero zero_offsets]
  simp only [View.ld_unit_zero (S := S6400x128) zero_offsets, View.ld_unit_zero (S := S6400x32) zero_offsets,
    View.ld_unit_zero (S := S128x128) zero_offsets, View.ld_unit_zero (S := S32x128) zero_offsets,
    View.ld_unit_zero (S := S1x128) zero_offsets, View.ld_unit_zero (S := S128x64) zero_offsets,
    View.ld_unit_zero (S := S1x64) zero_offsets]
  obtain ⟨e00, e01, e10, e11, e20, e21, e30, e31, e40, e41, e50, e51, e60, e61, e71, e70⟩ := index_facts t
  funext y
  obtain ⟨r, j, rfl⟩ : ∃ (r : Fin 6400) (j : Fin 64), y = ix2 r j := ⟨y 0, y 1, eq_ix2 y⟩
  show k0_pay1 (iblk0 V c 0 t) (iblk0 V c 1 t) (iblk0 V c 2 t) (iblk0 V c 3 t) (iblk0 V c 4 t) (iblk0 V c 5 t) (iblk0 V c 6 t) (ix2 r j)
    = edgeArray (V c main_v15) (V c main_arg3) (V c main_v16) (V c main_v17) (V c main_v18) (V c main_arg6) (V c main_v19)
        (((cfg0.win 7).blk t).view.emb (ix2 r j))
  refine (edge_payload_apply (iblk0 V c 0 t) (iblk0 V c 1 t) (iblk0 V c 2 t) (iblk0 V c 3 t) (iblk0 V c 4 t) (iblk0 V c 5 t) (iblk0 V c 6 t) r j).trans ?_
  unfold edgeArray
  refine twoBand_congr (fun a => ?_) (fun a => ?_) (fun a k => ?_) (fun a k => ?_) (fun k => ?_) (fun k a => ?_) (fun a => ?_) ?_
  · show V c main_v15 (((cfg0.win 0).blk t).view.emb (ix2 r a)) = V c main_v15 _
    refine congrArg (V c main_v15) (funext fun d => Fin.ext ?_)
    match d with
    | ⟨0, _⟩ => show win0_0.index t (0 : Fin 2) * 6400 + 1 * r.val = win0_7.index t (0 : Fin 2) * 6400 + 1 * r.val; omega
    | ⟨1, _⟩ => show win0_0.index t (1 : Fin 2) * 128 + 1 * a.val = a.val; omega
  · show V c main_arg3 (((cfg0.win 1).blk t).view.emb (ix2 r a)) = V c main_arg3 _
    refine congrArg (V c main_arg3) (funext fun d => Fin.ext ?_)
    match d with
    | ⟨0, _⟩ => show win0_1.index t (0 : Fin 2) * 6400 + 1 * r.val = win0_7.index t (0 : Fin 2) * 6400 + 1 * r.val; omega
    | ⟨1, _⟩ => show win0_1.index t (1 : Fin 2) * 32 + 1 * a.val = a.val; omega
  · show V c main_v16 (((cfg0.win 2).blk t).view.emb (ix2 a k)) = V c main_v16 _
    refine congrArg (V c main_v16) (funext fun d => Fin.ext ?_)
    match d with
    | ⟨0, _⟩ => show win0_2.index t (0 : Fin 2) * 128 + 1 * a.val = a.val; omega
    | ⟨1, _⟩ => show win0_2.index t (1 : Fin 2) * 128 + 1 * k.val = k.val; omega
  · show V c main_v17 (((cfg0.win 3).blk t).view.emb (ix2 a k)) = V c main_v17 _
    refine congrArg (V c main_v17) (funext fun d => Fin.ext ?_)
    match d with
    | ⟨0, _⟩ => show win0_3.index t (0 : Fin 2) * 32 + 1 * a.val = a.val; omega
    | ⟨1, _⟩ => show win0_3.index t (1 : Fin 2) * 128 + 1 * k.val = k.val; omega
  · show V c main_v18 (((cfg0.win 4).blk t).view.emb (ix2 (0 : Fin 1) k)) = V c main_v18 _
    refine congrArg (V c main_v18) (funext fun d => Fin.ext ?_)
    match d with
    | ⟨0, _⟩ => show win0_4.index t (0 : Fin 2) * 1 + 1 * 0 = 0; omega
    | ⟨1, _⟩ => show win0_4.index t (1 : Fin 2) * 128 + 1 * k.val = k.val; omega
  · show V c main_arg6 (((cfg0.win 5).blk t).view.emb (ix2 k a)) = V c main_arg6 _
    refine congrArg (V c main_arg6) (funext fun d => Fin.ext ?_)
    match d with
    | ⟨0, _⟩ => show win0_5.index t (0 : Fin 2) * 128 + 1 * k.val = k.val; omega
    | ⟨1, _⟩ => show win0_5.index t (1 : Fin 2) * 64 + 1 * a.val = a.val; omega
  · show V c main_v19 (((cfg0.win 6).blk t).view.emb (ix2 (0 : Fin 1) a)) = V c main_v19 _
    refine congrArg (V c main_v19) (funext fun d => Fin.ext ?_)
    match d with
    | ⟨0, _⟩ => show win0_6.index t (0 : Fin 2) * 1 + 1 * 0 = 0; omega
    | ⟨1, _⟩ => show win0_6.index t (1 : Fin 2) * 64 + 1 * a.val = a.val; omega
  · refine Fin.ext ?_
    show j.val = win0_7.index t (1 : Fin 2) * 64 + 1 * j.val
    omega

/-- An index of the result is in point `t`'s block iff each coordinate is in the block's range on its axis. -/
theorem mem_blk (t : Fin cfg0.N) (i : S800000x64.Idx) :
    i ∈ ((cfg0.win 7).blk t).view.set ↔ ∀ a : Fin 2, win0_7.index t a * S6400x64.size a ≤ (i a).val ∧ (i a).val < win0_7.index t a * S6400x64.size a + S6400x64.size a := by
  show i ∈ ((View.whole main_v20).slice (win0_7.rect t)).set ↔ _
  rw [View.set_slice_whole, Rect.mem_set_unit]
  exact Iff.rfl

/-- Every index of the result lies in some point's block. -/
theorem covered (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  obtain ⟨t, ht⟩ := index_onto ⟨(i 0).val / 6400, by omega⟩
  have q0 : win0_7.index t (0 : Fin 2) = (i 0).val / 6400 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 64 ≤ (i 1).val ∧ (i 1).val < win0_7.index t (1 : Fin 2) * 64 + 64; omega

/-- The array the edge stage leaves: `edgeArray` of the arrays as the region finds them. -/
theorem final (c : Dev nD) :
    (dat0 V c).arrAt 7 cfg0.N
      = edgeArray (V c main_v15) (V c main_arg3) (V c main_v16) (V c main_v17) (V c main_v18) (V c main_arg6) (V c main_v19) :=
  (dat0 V c).arrAt_eq_of_cover 7 _ (fun t _ => flushed_eq V c t) covered

end Cert.KernelIdeal.EdgeBlocks

end
-- ==== Proof.NodeBlocks.lean ====
/-
  The node stage's result array, from its blocks.

  The second pallas call walks the 50000 nodes in 10 blocks of 5000 rows; point t reads rows 5000 t … 5000 t + 4999 of
  the node features and of the summed messages, the whole of the five weight and bias arrays, and writes back block t
  of the result. So the array the region leaves is, at every (n, j), the two-band perceptron of row n of the two
  per-node inputs: what a point writes back is that function read through its block, and the 10 blocks cover the
  array (row n lies in block n / 5000). Everything is stated at whatever the buffers hold when the region is entered.
-/
import proofs.«113393_j27728308863843_2_alg».proof.Proof.Gen.KernelIdeal.Frame
import proofs.«113393_j27728308863843_2_alg».proof.Proof.KerPayload

set_option maxRecDepth 16384

noncomputable section

open scoped BigOperators

namespace Cert.KernelIdeal.NodeBlocks

open Cert.KernelIdeal Cert.KernelIdeal.Gen Idealize.ShloMosaic Idealize.ShloMosaic.TcCoe Idealize.ShloMosaic.ValueIdx Idealize.SL.Sem
open Idealize.ShloMosaic.Pipeline (Dat Cfg Window)
open Perceptron Cert.KernelIdeal.Bodies

/-- The result of the node stage as one function of the seven arrays it reads. -/
def nodeArray (X : S50000x64.Idx → EReal) (Y : S50000x64.Idx → EReal) (Wa : S64x128.Idx → EReal)
    (Wb : S64x128.Idx → EReal) (b : S1x128.Idx → EReal) (W2 : S128x64.Idx → EReal) (cc : S1x64.Idx → EReal) :
    S50000x64.Idx → EReal := fun i =>
  twoBand (fun a : Fin 64 => X (ix2 (⟨(i 0).val, (i 0).isLt⟩ : Fin 50000) a))
    (fun a : Fin 64 => Y (ix2 (⟨(i 0).val, (i 0).isLt⟩ : Fin 50000) a))
    (fun (a : Fin 64) (k : Fin 128) => Wa (ix2 a k)) (fun (a : Fin 64) (k : Fin 128) => Wb (ix2 a k))
    (fun k : Fin 128 => b (ix2 (0 : Fin 1) k)) (fun (k : Fin 128) (c : Fin 64) => W2 (ix2 k c))
    (fun c : Fin 64 => cc (ix2 (0 : Fin 1) c)) (⟨(i 1).val, (i 1).isLt⟩ : Fin 64)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two per-node inputs move with the result's block along the rows, every
    other block index is zero. -/
theorem index_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 9 :=
  (by decide +kernel : ∀ t : Fin grid1.N, _)

/-- Every row block is some point's. -/
theorem index_onto : ∀ q0 : Fin 10, ∃ t : Fin cfg1.N, win1_7.index t = ![q0.val, 0] :=
  (by decide +kernel : ∀ q0 : Fin 10, ∃ t : Fin grid1.N, win1_7.index t = ![q0.val, 0])

/-- What point `t` writes back is block `t` of `nodeArray` of the arrays as the region finds them. -/
theorem flushed_eq (c : Dev nD) (t : Fin cfg1.N) :
    (dat1 V c).flushed 7 t = ((cfg1.win 7).blk t).view.read (Elt Ideal)
      (nodeArray (V c main_v0) (V c main_v23) (V c main_v24) (V c main_v25) (V c main_v26) (V c main_arg10) (V c main_v27)) := by
  show (cfg1.win 7).cut (grid1.coords t) ((dat1 V c).after 7 t) = _
  rw [after1_7]
  unfold out1_7
  rw [View.canon_unit_zero zero_offsets]
  simp only [View.ld_unit_zero (S := S5000x64) zero_offsets, View.ld_unit_zero (S := S64x128) zero_offsets,
    View.ld_unit_zero (S := S1x128) zero_offsets, View.ld_unit_zero (S := S128x64) zero_offsets,
    View.ld_unit_zero (S := S1x64) zero_offsets]
  obtain ⟨e00, e01, e10, e11, e20, e21, e30, e31, e40, e41, e50, e51, e60, e61, e71, e70⟩ := index_facts t
  funext y
  obtain ⟨r, j, rfl⟩ : ∃ (r : Fin 5000) (j : Fin 64), y = ix2 r j := ⟨y 0, y 1, eq_ix2 y⟩
  show k1_pay1 (iblk1 V c 0 t) (iblk1 V c 1 t) (iblk1 V c 2 t) (iblk1 V c 3 t) (iblk1 V c 4 t) (iblk1 V c 5 t) (iblk1 V c 6 t) (ix2 r j)
    = nodeArray (V c main_v0) (V c main_v23) (V c main_v24) (V c main_v25) (V c main_v26) (V c main_arg10) (V c main_v27)
        (((cfg1.win 7).blk t).view.emb (ix2 r j))
  refine (node_payload_apply (iblk1 V c 0 t) (iblk1 V c 1 t) (iblk1 V c 2 t) (iblk1 V c 3 t) (iblk1 V c 4 t) (iblk1 V c 5 t) (iblk1 V c 6 t) r j).trans ?_
  unfold nodeArray
  refine twoBand_congr (fun a => ?_) (fun a => ?_) (fun a k => ?_) (fun a k => ?_) (fun k => ?_) (fun k a => ?_) (fun a => ?_) ?_
  · show V c main_v0 (((cfg1.win 0).blk t).view.emb (ix2 r a)) = V c main_v0 _
    refine congrArg (V c main_v0) (funext fun d => Fin.ext ?_)
    match d with
    | ⟨0, _⟩ => show win1_0.index t (0 : Fin 2) * 5000 + 1 * r.val = win1_7.index t (0 : Fin 2) * 5000 + 1 * r.val; omega
    | ⟨1, _⟩ => show win1_0.index t (1 : Fin 2) * 64 + 1 * a.val = a.val; omega
  · show V c main_v23 (((cfg1.win 1).blk t).view.emb (ix2 r a)) = V c main_v23 _
    refine congrArg (V c main_v23) (funext fun d => Fin.ext ?_)
    match d with
    | ⟨0, _⟩ => show win1_1.index t (0 : Fin 2) * 5000 + 1 * r.val = win1_7.index t (0 : Fin 2) * 5000 + 1 * r.val; omega
    | ⟨1, _⟩ => show win1_1.index t (1 : Fin 2) * 64 + 1 * a.val = a.val; omega
  · show V c main_v24 (((cfg1.win 2).blk t).view.emb (ix2 a k)) = V c main_v24 _
    refine congrArg (V c main_v24) (funext fun d => Fin.ext ?_)
    match d with
    | ⟨0, _⟩ => show win1_2.index t (0 : Fin 2) * 64 + 1 * a.val = a.val; omega
    | ⟨1, _⟩ => show win1_2.index t (1 : Fin 2) * 128 + 1 * k.val = k.val; omega
  · show V c main_v25 (((cfg1.win 3).blk t).view.emb (ix2 a k)) = V c main_v25 _
    refine congrArg (V c main_v25) (funext fun d => Fin.ext ?_)
    match d with
    | ⟨0, _⟩ => show win1_3.index t (0 : Fin 2) * 64 + 1 * a.val = a.val; omega
    | ⟨1, _⟩ => show win1_3.index t (1 : Fin 2) * 128 + 1 * k.val = k.val; omega
  · show V c main_v26 (((cfg1.win 4).blk t).view.emb (ix2 (0 : Fin 1) k)) = V c main_v26 _
    refine congrArg (V c main_v26) (funext fun d => Fin.ext ?_)
    match d with
    | ⟨0, _⟩ => show win1_4.index t (0 : Fin 2) * 1 + 1 * 0 = 0; omega
    | ⟨1, _⟩ => show win1_4.index t (1 : Fin 2) * 128 + 1 * k.val = k.val; omega
  · show V c main_arg10 (((cfg1.win 5).blk t).view.emb (ix2 k a)) = V c main_arg10 _
    refine congrArg (V c main_arg10) (funext fun d => Fin.ext ?_)
    match d with
    | ⟨0, _⟩ => show win1_5.index t (0 : Fin 2) * 128 + 1 * k.val = k.val; omega
    | ⟨1, _⟩ => show win1_5.index t (1 : Fin 2) * 64 + 1 * a.val = a.val; omega
  · show V c main_v27 (((cfg1.win 6).blk t).view.emb (ix2 (0 : Fin 1) a)) = V c main_v27 _
    refine congrArg (V c main_v27) (funext fun d => Fin.ext ?_)
    match d with
    | ⟨0, _⟩ => show win1_6.index t (0 : Fin 2) * 1 + 1 * 0 = 0; omega
    | ⟨1, _⟩ => show win1_6.index t (1 : Fin 2) * 64 + 1 * a.val = a.val; omega
  · refine Fin.ext ?_
    show j.val = win1_7.index t (1 : Fin 2) * 64 + 1 * j.val
    omega

/-- An index of the result is in point `t`'s block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v28).slice (win1_7.rect t)).set ↔ _
  rw [View.set_slice_whole, Rect.mem_set_unit]
  exact Iff.rfl

/-- Every index of the result lies in some point's block. -/
theorem covered (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ := index_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The array the node stage leaves: `nodeArray` of the arrays as the region finds them. -/
theorem final (c : Dev nD) :
    (dat1 V c).arrAt 7 cfg1.N
      = nodeArray (V c main_v0) (V c main_v23) (V c main_v24) (V c main_v25) (V c main_v26) (V c main_arg10) (V c main_v27) :=
  (dat1 V c).arrAt_eq_of_cover 7 _ (fun t _ => flushed_eq V c t) covered

end Cert.KernelIdeal.NodeBlocks

end
-- ==== Proof.KerHost.lean ====
/-
  The host operations of the idealized kernel, read at the arrays its two pallas calls take.

  Before the first call the host converts the node features to the narrow format (the identity on extended reals),
  wraps each endpoint index below zero by the node count, gathers the two endpoint rows of every edge and joins
  them side by side, cuts the first layer's weight matrix into its first 128 and last 32 rows, and views the two
  bias vectors as one-row matrices. Between the calls it sums the per-edge messages into their target nodes,
  cuts the second perceptron's first weight matrix into its two 64-row halves and views its biases as rows. Each
  array a call reads is therefore a fixed term of the launch arrays (and, for the summed messages, of the first
  call's result), and the two calls' results are the two perceptron arrays of those terms.
-/
import proofs.«113393_j27728308863843_2_alg».proof.Proof.Gen.KernelIdeal.Frame
import proofs.«113393_j27728308863843_2_alg».proof.Proof.EdgeBlocks
import proofs.«113393_j27728308863843_2_alg».proof.Proof.NodeBlocks
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Cert.KernelIdeal.EdgeBlocks Cert.KernelIdeal.NodeBlocks

/-- An endpoint index array with its negative entries wrapped by the node count, as a one-column matrix. -/
def wrapped (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The node rows at one endpoint of every edge. -/
def endpointRows (x0 : (⟨S50000x64, .f32⟩ : BufTy).Contents (Elt Ideal)) (x : (⟨S800000, .i32⟩ : BufTy).Contents (Elt Ideal)) :
    (⟨S800000x64, .bf16⟩ : BufTy).Contents (Elt Ideal) :=
  Host.gather gather_S50000x64_S800000x1_S800000x64_1_0_n_n_0_1_164 (truncf (F := Ideal) .bf16 x0 bitsLt_bf16_f32) (wrapped x)

/-- The two endpoints' rows of every edge side by side. -/
def bothEndpoints (x0 : (⟨S50000x64, .f32⟩ : BufTy).Contents (Elt Ideal)) (x1 x2 : (⟨S800000, .i32⟩ : BufTy).Contents (Elt Ideal)) :
    (⟨S800000x128, .bf16⟩ : BufTy).Contents (Elt Ideal) :=
  concatenate S800000x128 1 [⟨S800000x64, endpointRows x0 x1⟩, ⟨S800000x64, endpointRows x0 x2⟩] concatenates_S800000x64_S800000x64_S800000x128_d1

/-- The per-edge messages summed into their target nodes. -/
def summed (x2 : (⟨S800000, .i32⟩ : BufTy).Contents (Elt Ideal)) (msg : (⟨S800000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 x2) msg

variable (m : (ℓ : Loc nD τ sig) → Buf (Elt Ideal) ℓ) (ρ : Dev nD → PrngReg)

/-- One rewriting step per host operation and buffer: an operation's result at its own buffer is its function's
    value of its operands' contents, at any other buffer what was there before. -/
local macro "results_loop" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## What the first call reads -/

set_option maxHeartbeats 4000000 in
theorem entry0_joined (c : Dev nD) : V1 m ρ c main_v15 = bothEndpoints (m ((c : Thread nD τ).loc main_arg0)) (m ((c : Thread nD τ).loc main_arg1)) (m ((c : Thread nD τ).loc main_arg2)) := by
  show StableHlo.after (hostOps0 (F := Ideal)) (W0 m ρ c) (Proc.devRef .tc main_v15) = _
  after_results_simp
  (results_loop) <;> try rfl

theorem entry0_edges (c : Dev nD) : V1 m ρ c main_arg3 = (m ((c : Thread nD τ).loc main_arg3)) := by
  show StableHlo.after (hostOps0 (F := Ideal)) (W0 m ρ c) (Proc.devRef .tc main_arg3) = _
  (after_results) <;> try rfl

theorem entry0_w1_top (c : Dev nD) : V1 m ρ c main_v16 = extractStridedSlice S128x128 ![0, 0] (m ((c : Thread nD τ).loc main_arg4)) slices_S160x128_S128x128_0_0 := by
  show StableHlo.after (hostOps0 (F := Ideal)) (W0 m ρ c) (Proc.devRef .tc main_v16) = _
  (after_results) <;> try rfl

theorem entry0_w1_bottom (c : Dev nD) : V1 m ρ c main_v17 = extractStridedSlice S32x128 ![128, 0] (m ((c : Thread nD τ).loc main_arg4)) slices_S160x128_S32x128_128_0 := by
  show StableHlo.after (hostOps0 (F := Ideal)) (W0 m ρ c) (Proc.devRef .tc main_v17) = _
  (after_results) <;> try rfl

theorem entry0_b1 (c : Dev nD) : V1 m ρ c main_v18 = shapeCast S1x128 (m ((c : Thread nD τ).loc main_arg5)) shapeCasts_S128_S1x128 := by
  show StableHlo.after (hostOps0 (F := Ideal)) (W0 m ρ c) (Proc.devRef .tc main_v18) = _
  (after_results) <;> try rfl

theorem entry0_w2 (c : Dev nD) : V1 m ρ c main_arg6 = (m ((c : Thread nD τ).loc main_arg6)) := by
  show StableHlo.after (hostOps0 (F := Ideal)) (W0 m ρ c) (Proc.devRef .tc main_arg6) = _
  (after_results) <;> try rfl

theorem entry0_b2 (c : Dev nD) : V1 m ρ c main_v19 = shapeCast S1x64 (m ((c : Thread nD τ).loc main_arg7)) shapeCasts_S64_S1x64 := by
  show StableHlo.after (hostOps0 (F := Ideal)) (W0 m ρ c) (Proc.devRef .tc main_v19) = _
  (after_results) <;> try rfl

/-- The first call's result: the edge perceptron of those arrays. -/
theorem edge_result (c : Dev nD) :
    W2 m ρ c (Proc.devRef .tc main_v20)
      = edgeArray (bothEndpoints (m ((c : Thread nD τ).loc main_arg0)) (m ((c : Thread nD τ).loc main_arg1)) (m ((c : Thread nD τ).loc main_arg2))) (m ((c : Thread nD τ).loc main_arg3))
          (extractStridedSlice S128x128 ![0, 0] (m ((c : Thread nD τ).loc main_arg4)) slices_S160x128_S128x128_0_0)
          (extractStridedSlice S32x128 ![128, 0] (m ((c : Thread nD τ).loc main_arg4)) slices_S160x128_S32x128_128_0)
          (shapeCast S1x128 (m ((c : Thread nD τ).loc main_arg5)) shapeCasts_S128_S1x128) (m ((c : Thread nD τ).loc main_arg6)) (shapeCast S1x64 (m ((c : Thread nD τ).loc main_arg7)) shapeCasts_S64_S1x64) := by
  have h := (W2_arr m ρ c 7).trans (EdgeBlocks.final (V1 m ρ) c)
  rw [entry0_joined m ρ c, entry0_edges m ρ c, entry0_w1_top m ρ c, entry0_w1_bottom m ρ c, entry0_b1 m ρ c,
    entry0_w2 m ρ c, entry0_b2 m ρ c] at h
  exact h

/-! ## What is carried unchanged through the first call -/

theorem carried_nodes (c : Dev nD) : W2 m ρ c (Proc.devRef .tc main_v0) = (truncf (F := Ideal) .bf16 (m ((c : Thread nD τ).loc main_arg0)) bitsLt_bf16_f32) :=
  (W2_of_ne m ρ c main_v0 (by decide)).trans (by
    show StableHlo.after (hostOps0 (F := Ideal)) (W0 m ρ c) (Proc.devRef .tc main_v0) = _
    (after_results) <;> try rfl)

theorem carried_arg2 (c : Dev nD) : W2 m ρ c (Proc.devRef .tc main_arg2) = (m ((c : Thread nD τ).loc main_arg2)) :=
  (W2_of_ne m ρ c main_arg2 (by decide)).trans (by
    show StableHlo.after (hostOps0 (F := Ideal)) (W0 m ρ c) (Proc.devRef .tc main_arg2) = _
    (after_results) <;> try rfl)

theorem carried_arg8 (c : Dev nD) : W2 m ρ c (Proc.devRef .tc main_arg8) = (m ((c : Thread nD τ).loc main_arg8)) :=
  (W2_of_ne m ρ c main_arg8 (by decide)).trans (by
    show StableHlo.after (hostOps0 (F := Ideal)) (W0 m ρ c) (Proc.devRef .tc main_arg8) = _
    (after_results) <;> try rfl)

theorem carried_arg9 (c : Dev nD) : W2 m ρ c (Proc.devRef .tc main_arg9) = (m ((c : Thread nD τ).loc main_arg9)) :=
  (W2_of_ne m ρ c main_arg9 (by decide)).trans (by
    show StableHlo.after (hostOps0 (F := Ideal)) (W0 m ρ c) (Proc.devRef .tc main_arg9) = _
    (after_results) <;> try rfl)

theorem carried_arg10 (c : Dev nD) : W2 m ρ c (Proc.devRef .tc main_arg10) = (m ((c : Thread nD τ).loc main_arg10)) :=
  (W2_of_ne m ρ c main_arg10 (by decide)).trans (by
    show StableHlo.after (hostOps0 (F := Ideal)) (W0 m ρ c) (Proc.devRef .tc main_arg10) = _
    (after_results) <;> try rfl)

theorem carried_arg11 (c : Dev nD) : W2 m ρ c (Proc.devRef .tc main_arg11) = (m ((c : Thread nD τ).loc main_arg11)) :=
  (W2_of_ne m ρ c main_arg11 (by decide)).trans (by
    show StableHlo.after (hostOps0 (F := Ideal)) (W0 m ρ c) (Proc.devRef .tc main_arg11) = _
    (after_results) <;> try rfl)

/-! ## What the second call reads -/

theorem entry1_nodes (c : Dev nD) : V3 m ρ c main_v0 = (truncf (F := Ideal) .bf16 (m ((c : Thread nD τ).loc main_arg0)) bitsLt_bf16_f32) := by
  show StableHlo.after (hostOps1 (F := Ideal)) (W2 m ρ c) (Proc.devRef .tc main_v0) = _
  after_results
  exact carried_nodes m ρ c

theorem entry1_summed (c : Dev nD) : V3 m ρ c main_v23 = summed (m ((c : Thread nD τ).loc main_arg2)) (edgeArray (bothEndpoints (m ((c : Thread nD τ).loc main_arg0)) (m ((c : Thread nD τ).loc main_arg1)) (m ((c : Thread nD τ).loc main_arg2))) (m ((c : Thread nD τ).loc main_arg3))
          (extractStridedSlice S128x128 ![0, 0] (m ((c : Thread nD τ).loc main_arg4)) slices_S160x128_S128x128_0_0)
          (extractStridedSlice S32x128 ![128, 0] (m ((c : Thread nD τ).loc main_arg4)) slices_S160x128_S32x128_128_0)
          (shapeCast S1x128 (m ((c : Thread nD τ).loc main_arg5)) shapeCasts_S128_S1x128) (m ((c : Thread nD τ).loc main_arg6)) (shapeCast S1x64 (m ((c : Thread nD τ).loc main_arg7)) shapeCasts_S64_S1x64)) := by
  show StableHlo.after (hostOps1 (F := Ideal)) (W2 m ρ c) (Proc.devRef .tc main_v23) = _
  after_results
  rw [carried_arg2 m ρ c, edge_result m ρ c]
  rfl

theorem entry1_u1_top (c : Dev nD) : V3 m ρ c main_v24 = extractStridedSlice S64x128 ![0, 0] (m ((c : Thread nD τ).loc main_arg8)) slices_S128x128_S64x128_0_0 := by
  show StableHlo.after (hostOps1 (F := Ideal)) (W2 m ρ c) (Proc.devRef .tc main_v24) = _
  after_results
  rw [carried_arg8 m ρ c]

theorem entry1_u1_bottom (c : Dev nD) : V3 m ρ c main_v25 = extractStridedSlice S64x128 ![64, 0] (m ((c : Thread nD τ).loc main_arg8)) slices_S128x128_S64x128_64_0 := by
  show StableHlo.after (hostOps1 (F := Ideal)) (W2 m ρ c) (Proc.devRef .tc main_v25) = _
  after_results
  rw [carried_arg8 m ρ c]

theorem entry1_c1 (c : Dev nD) : V3 m ρ c main_v26 = shapeCast S1x128 (m ((c : Thread nD τ).loc main_arg9)) shapeCasts_S128_S1x128 := by
  show StableHlo.after (hostOps1 (F := Ideal)) (W2 m ρ c) (Proc.devRef .tc main_v26) = _
  after_results
  rw [carried_arg9 m ρ c]
  rfl

theorem entry1_u2 (c : Dev nD) : V3 m ρ c main_arg10 = (m ((c : Thread nD τ).loc main_arg10)) := by
  show StableHlo.after (hostOps1 (F := Ideal)) (W2 m ρ c) (Proc.devRef .tc main_arg10) = _
  after_results
  exact carried_arg10 m ρ c

theorem entry1_c2 (c : Dev nD) : V3 m ρ c main_v27 = shapeCast S1x64 (m ((c : Thread nD τ).loc main_arg11)) shapeCasts_S64_S1x64 := by
  show StableHlo.after (hostOps1 (F := Ideal)) (W2 m ρ c) (Proc.devRef .tc main_v27) = _
  after_results
  rw [carried_arg11 m ρ c]
  rfl

/-- The second call's result, which is the program's: the node perceptron of those arrays. -/
theorem node_result (c : Dev nD) :
    W4 m ρ c (Proc.devRef .tc main_v28)
      = nodeArray (truncf (F := Ideal) .bf16 (m ((c : Thread nD τ).loc main_arg0)) bitsLt_bf16_f32) (summed (m ((c : Thread nD τ).loc main_arg2)) (edgeArray (bothEndpoints (m ((c : Thread nD τ).loc main_arg0)) (m ((c : Thread nD τ).loc main_arg1)) (m ((c : Thread nD τ).loc main_arg2))) (m ((c : Thread nD τ).loc main_arg3))
          (extractStridedSlice S128x128 ![0, 0] (m ((c : Thread nD τ).loc main_arg4)) slices_S160x128_S128x128_0_0)
          (extractStridedSlice S32x128 ![128, 0] (m ((c : Thread nD τ).loc main_arg4)) slices_S160x128_S32x128_128_0)
          (shapeCast S1x128 (m ((c : Thread nD τ).loc main_arg5)) shapeCasts_S128_S1x128) (m ((c : Thread nD τ).loc main_arg6)) (shapeCast S1x64 (m ((c : Thread nD τ).loc main_arg7)) shapeCasts_S64_S1x64)))
          (extractStridedSlice S64x128 ![0, 0] (m ((c : Thread nD τ).loc main_arg8)) slices_S128x128_S64x128_0_0)
          (extractStridedSlice S64x128 ![64, 0] (m ((c : Thread nD τ).loc main_arg8)) slices_S128x128_S64x128_64_0)
          (shapeCast S1x128 (m ((c : Thread nD τ).loc main_arg9)) shapeCasts_S128_S1x128) (m ((c : Thread nD τ).loc main_arg10)) (shapeCast S1x64 (m ((c : Thread nD τ).loc main_arg11)) shapeCasts_S64_S1x64) := by
  have h := (W4_arr m ρ c 7).trans (NodeBlocks.final (V3 m ρ) c)
  rw [entry1_nodes m ρ c, entry1_summed m ρ c, entry1_u1_top m ρ c, entry1_u1_bottom m ρ c, entry1_c1 m ρ c,
    entry1_u2 m ρ c, entry1_c2 m ρ c] at h
  exact h

end Cert.KernelIdeal.HostSide

end
-- ==== Proof.RefStages.lean ====
/-
  The reference read as two perceptrons.

  Its per-edge stage, at edge e and column j, is the one-band perceptron (Perceptron.oneBand) of row e of the
  160-wide array that joins the two gathered endpoint rows and the edge features; its per-node stage, at node n
  and column j, is the one-band perceptron of row n of the 128-wide array that joins the node features and the
  messages summed into their target nodes. Each stage is read one operation at a time: a product as the sum over
  the shared coordinate, a bias row broadcast down the rows, the rectifier as the maximum with zero.
-/
import proofs.«113393_j27728308863843_2_alg».proof.Proof.Gen.ReferenceIdeal.Read
import proofs.«113393_j27728308863843_2_alg».proof.Proof.Perceptron
import Idealize.ShloMosaic.Lib.ValueIdx
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.ValueIdx
open Perceptron

/-- The per-edge stage at (e, j). -/
theorem edge_apply (x0 : (⟨S50000x64, .f32⟩ : BufTy).Contents (Elt Ideal)) (x1 x2 : (⟨S800000, .i32⟩ : BufTy).Contents (Elt Ideal)) (x3 : (⟨S800000x32, .f32⟩ : BufTy).Contents (Elt Ideal)) (x4 : (⟨S160x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (e : Fin 800000) (j : Fin 64) :
    val_main_v23 (F := Ideal) x0 x1 x2 x3 x4 x5 x6 x7 (ix2 e j)
      = oneBand (fun a : Fin 160 => val_main_v14 (F := Ideal) x0 x1 x2 x3 (ix2 e a)) (fun a k => x4 (ix2 a k))
          (fun k => x5 (ix1 k)) (fun k c => x6 (ix2 k c)) (fun c => x7 (ix1 c)) j := by
  rw [val_main_v23_apply, val_main_v20_apply, val_main_v22_apply, val_main_v21_apply]
  unfold oneBand
  refine congrArg₂ (· + ·) (Finset.sum_congr rfl fun k _ => congrArg₂ (· * ·) ?_ (congrArg x6 (funext fun d => Fin.ext (by match d with | ⟨0, _⟩ => rfl | ⟨1, _⟩ => rfl)))) (congrArg x7 (funext fun d => Fin.ext (by match d with | ⟨0, _⟩ => rfl)))
  rw [val_main_v19_apply, val_main_v18_apply, val_main_v15_apply, val_main_v17_apply, val_main_v16_apply,
    val_main_call0_v0_apply, val_main_call0_cst_apply]
  refine congrArg₂ max (congrArg₂ (· + ·) (Finset.sum_congr rfl fun a _ => congrArg₂ (· * ·)
    (congrArg (val_main_v14 (F := Ideal) x0 x1 x2 x3) (funext fun d => Fin.ext (by match d with | ⟨0, _⟩ => rfl | ⟨1, _⟩ => rfl))) (congrArg x4 (funext fun d => Fin.ext (by match d with | ⟨0, _⟩ => rfl | ⟨1, _⟩ => rfl)))) (congrArg x5 (funext fun d => Fin.ext (by match d with | ⟨0, _⟩ => rfl)))) Ideal.ofBits_zero_f32

/-- The per-node stage at (n, j). -/
theorem node_apply (x0 : (⟨S50000x64, .f32⟩ : BufTy).Contents (Elt Ideal)) (x1 x2 : (⟨S800000, .i32⟩ : BufTy).Contents (Elt Ideal)) (x3 : (⟨S800000x32, .f32⟩ : BufTy).Contents (Elt Ideal)) (x4 : (⟨S160x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S128x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (n : Fin 50000) (j : Fin 64) :
    val_main_v36 (F := Ideal) x0 x1 x2 x3 x4 x5 x6 x7 x8 x9 x10 x11 (ix2 n j)
      = oneBand (fun a : Fin 128 => val_main_v27 (F := Ideal) x0 x1 x2 x3 x4 x5 x6 x7 (ix2 n a)) (fun a k => x8 (ix2 a k))
          (fun k => x9 (ix1 k)) (fun k c => x10 (ix2 k c)) (fun c => x11 (ix1 c)) j := by
  rw [val_main_v36_apply, val_main_v33_apply, val_main_v35_apply, val_main_v34_apply]
  unfold oneBand
  refine congrArg₂ (· + ·) (Finset.sum_congr rfl fun k _ => congrArg₂ (· * ·) ?_ (congrArg x10 (funext fun d => Fin.ext (by match d with | ⟨0, _⟩ => rfl | ⟨1, _⟩ => rfl)))) (congrArg x11 (funext fun d => Fin.ext (by match d with | ⟨0, _⟩ => rfl)))
  rw [val_main_v32_apply, val_main_v31_apply, val_main_v28_apply, val_main_v30_apply, val_main_v29_apply,
    val_main_call1_v0_apply, val_main_call1_cst_apply]
  refine congrArg₂ max (congrArg₂ (· + ·) (Finset.sum_congr rfl fun a _ => congrArg₂ (· * ·)
    (congrArg (val_main_v27 (F := Ideal) x0 x1 x2 x3 x4 x5 x6 x7) (funext fun d => Fin.ext (by match d with | ⟨0, _⟩ => rfl | ⟨1, _⟩ => rfl))) (congrArg x8 (funext fun d => Fin.ext (by match d with | ⟨0, _⟩ => rfl | ⟨1, _⟩ => rfl)))) (congrArg x9 (funext fun d => Fin.ext (by match d with | ⟨0, _⟩ => rfl)))) Ideal.ofBits_zero_f32

end Cert.ReferenceIdeal.Stages

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.Bridge.lean ====
/-
  The two programs compute one function.

  The idealized kernel applies its edge perceptron to the joined endpoint rows (128 columns) and the edge features
  (32 columns) with the first weight matrix cut into its first 128 and last 32 rows; the reference applies one
  perceptron to the 160-column join of the same three pieces with the whole matrix. The first 128 columns of the
  reference's join are the kernel's join, the last 32 the edge features, and the two row bands of the weight matrix
  are the kernel's two slices, so the two perceptrons agree entry by entry (Perceptron.twoBand_eq_oneBand_of: a sum
  over 128 + 32 indices split in two). Both programs then sum the messages into their target nodes by the same
  operation. The node perceptron is the same story with two bands of 64 columns: the node features and the summed
  messages against the two 64-row halves of its first weight matrix. A bias viewed as a one-row matrix reads its
  vector's entry; a change of float format is the identity on extended reals.
-/
import proofs.«113393_j27728308863843_2_alg».proof.Proof.KerHost
import proofs.«113393_j27728308863843_2_alg».proof.Proof.RefStages
import proofs.«113393_j27728308863843_2_alg».proof.Proof.LibJoinCols
import Idealize.ShloMosaic.Lib.ValueLayout

set_option maxRecDepth 16384

noncomputable section

open scoped BigOperators

namespace Cert.Bridge

open Idealize.ShloMosaic Idealize.ShloMosaic.ValueIdx Idealize.ShloMosaic.JoinCols Perceptron
open Cert.KernelIdeal.HostSide Cert.KernelIdeal.EdgeBlocks Cert.KernelIdeal.NodeBlocks
open Cert.ReferenceIdeal.Stages Cert.ReferenceIdeal.Read

/-- The kernel's gathered endpoint rows are the reference's: the same gather of the same node array (the narrow
    format is the identity) at the same wrapped indices. -/
theorem endpointRows_eq_first (x0 : (⟨Cert.KernelIdeal.S50000x64, .f32⟩ : BufTy).Contents (Elt Ideal)) (x : (⟨Cert.KernelIdeal.S800000, .i32⟩ : BufTy).Contents (Elt Ideal)) :
    endpointRows x0 x = val_main_v6 (F := Ideal) x0 x := rfl

theorem endpointRows_eq_second (x0 : (⟨Cert.KernelIdeal.S50000x64, .f32⟩ : BufTy).Contents (Elt Ideal)) (x : (⟨Cert.KernelIdeal.S800000, .i32⟩ : BufTy).Contents (Elt Ideal)) :
    endpointRows x0 x = val_main_v13 (F := Ideal) x0 x := rfl

/-- The edge stage: the kernel's perceptron array is the reference's per-edge stage. -/
theorem edge_eq (x0 : (⟨Cert.KernelIdeal.S50000x64, .f32⟩ : BufTy).Contents (Elt Ideal)) (x1 x2 : (⟨Cert.KernelIdeal.S800000, .i32⟩ : BufTy).Contents (Elt Ideal)) (x3 : (⟨Cert.KernelIdeal.S800000x32, .f32⟩ : BufTy).Contents (Elt Ideal)) (x4 : (⟨Cert.KernelIdeal.S160x128, .f32⟩ : BufTy).Contents (Elt Ideal)) (x5 : (⟨Cert.KernelIdeal.S128, .f32⟩ : BufTy).Contents (Elt Ideal)) (x6 : (⟨Cert.KernelIdeal.S128x64, .f32⟩ : BufTy).Contents (Elt Ideal)) (x7 : (⟨Cert.KernelIdeal.S64, .f32⟩ : BufTy).Contents (Elt Ideal)) :
    (edgeArray (bothEndpoints x0 x1 x2) x3
        (extractStridedSlice Cert.KernelIdeal.S128x128 ![0, 0] x4 Cert.KernelIdeal.Facts₀.slices_S160x128_S128x128_0_0)
        (extractStridedSlice Cert.KernelIdeal.S32x128 ![128, 0] x4 Cert.KernelIdeal.Facts₀.slices_S160x128_S32x128_128_0)
        (shapeCast Cert.KernelIdeal.S1x128 x5 Cert.KernelIdeal.Facts₀.shapeCasts_S128_S1x128) x6 (shapeCast Cert.KernelIdeal.S1x64 x7 Cert.KernelIdeal.Facts₀.shapeCasts_S64_S1x64))
      = val_main_v23 (F := Ideal) x0 x1 x2 x3 x4 x5 x6 x7 := by
  funext i
  obtain ⟨e, j, rfl⟩ : ∃ (e : Fin 800000) (j : Fin 64), i = ix2 e j := ⟨i 0, i 1, eq_ix2 i⟩
  rw [edge_apply]
  unfold edgeArray
  refine twoBand_eq_oneBand_of (p := 128) (q := 32)
    (fun a => val_main_v14 (F := Ideal) x0 x1 x2 x3 (ix2 e a)) (fun a k => x4 (ix2 a k))
    (fun a => ?_) (fun a => ?_) (fun a k => ?_) (fun a k => ?_) (fun k => ?_) (fun k a => rfl) (fun a => ?_) rfl
  · -- the first 128 columns of the 160-wide join are the 128-wide join
    by_cases h : a.val < 64
    · refine (pair_left (endpointRows x0 x1) (endpointRows x0 x2) _ e ⟨a.val, h⟩ a rfl).trans ?_
      refine Eq.trans ?_ (triple_left (val_main_v6 (F := Ideal) x0 x1) (val_main_v13 (F := Ideal) x0 x2) x3 _ e ⟨a.val, h⟩ (Fin.castAdd 32 a) rfl).symm
      exact congrFun (endpointRows_eq_first x0 x1) _
    · have h2 : a.val - 64 < 64 := by have := a.isLt; omega
      refine (pair_right (endpointRows x0 x1) (endpointRows x0 x2) _ e ⟨a.val - 64, h2⟩ a (by show a.val = 64 + (a.val - 64); omega)).trans ?_
      refine Eq.trans ?_ (triple_mid (val_main_v6 (F := Ideal) x0 x1) (val_main_v13 (F := Ideal) x0 x2) x3 _ e ⟨a.val - 64, h2⟩ (Fin.castAdd 32 a)
        (by show a.val = 64 + (a.val - 64); omega)).symm
      exact congrFun (endpointRows_eq_second x0 x2) _
  · -- the last 32 columns are the edge features
    exact (triple_right (val_main_v6 (F := Ideal) x0 x1) (val_main_v13 (F := Ideal) x0 x2) x3 _ e a (Fin.natAdd 128 a)
      (by show 128 + a.val = 64 + 64 + a.val; omega)).symm
  · exact slice2_axis0_apply 0 x4 _ a k (Fin.castAdd 32 a) (by show a.val = 0 + a.val; omega)
  · exact slice2_axis0_apply 128 x4 _ a k (Fin.natAdd 128 a) rfl
  · exact shapeCast_a_1a_apply x5 _ (0 : Fin 1) k
  · exact shapeCast_a_1a_apply x7 _ (0 : Fin 1) a

/-- The sum of the messages into their target nodes is the same operation in both programs. -/
theorem summed_eq (x0 : (⟨Cert.KernelIdeal.S50000x64, .f32⟩ : BufTy).Contents (Elt Ideal)) (x1 x2 : (⟨Cert.KernelIdeal.S800000, .i32⟩ : BufTy).Contents (Elt Ideal)) (x3 : (⟨Cert.KernelIdeal.S800000x32, .f32⟩ : BufTy).Contents (Elt Ideal)) (x4 : (⟨Cert.KernelIdeal.S160x128, .f32⟩ : BufTy).Contents (Elt Ideal)) (x5 : (⟨Cert.KernelIdeal.S128, .f32⟩ : BufTy).Contents (Elt Ideal)) (x6 : (⟨Cert.KernelIdeal.S128x64, .f32⟩ : BufTy).Contents (Elt Ideal)) (x7 : (⟨Cert.KernelIdeal.S64, .f32⟩ : BufTy).Contents (Elt Ideal)) :
    summed x2 (edgeArray (bothEndpoints x0 x1 x2) x3
        (extractStridedSlice Cert.KernelIdeal.S128x128 ![0, 0] x4 Cert.KernelIdeal.Facts₀.slices_S160x128_S128x128_0_0)
        (extractStridedSlice Cert.KernelIdeal.S32x128 ![128, 0] x4 Cert.KernelIdeal.Facts₀.slices_S160x128_S32x128_128_0)
        (shapeCast Cert.KernelIdeal.S1x128 x5 Cert.KernelIdeal.Facts₀.shapeCasts_S128_S1x128) x6 (shapeCast Cert.KernelIdeal.S1x64 x7 Cert.KernelIdeal.Facts₀.shapeCasts_S64_S1x64))
      = val_main_v26 (F := Ideal) x0 x1 x2 x3 x4 x5 x6 x7 :=
  (congrArg (summed x2) (edge_eq x0 x1 x2 x3 x4 x5 x6 x7)).trans rfl

/-- The node stage: the kernel's result array is the reference's result. -/
theorem node_eq (x0 : (⟨Cert.KernelIdeal.S50000x64, .f32⟩ : BufTy).Contents (Elt Ideal)) (x1 x2 : (⟨Cert.KernelIdeal.S800000, .i32⟩ : BufTy).Contents (Elt Ideal)) (x3 : (⟨Cert.KernelIdeal.S800000x32, .f32⟩ : BufTy).Contents (Elt Ideal)) (x4 : (⟨Cert.KernelIdeal.S160x128, .f32⟩ : BufTy).Contents (Elt Ideal)) (x5 : (⟨Cert.KernelIdeal.S128, .f32⟩ : BufTy).Contents (Elt Ideal)) (x6 : (⟨Cert.KernelIdeal.S128x64, .f32⟩ : BufTy).Contents (Elt Ideal)) (x7 : (⟨Cert.KernelIdeal.S64, .f32⟩ : BufTy).Contents (Elt Ideal)) (x8 : (⟨Cert.KernelIdeal.S128x128, .f32⟩ : BufTy).Contents (Elt Ideal)) (x9 : (⟨Cert.KernelIdeal.S128, .f32⟩ : BufTy).Contents (Elt Ideal)) (x10 : (⟨Cert.KernelIdeal.S128x64, .f32⟩ : BufTy).Contents (Elt Ideal)) (x11 : (⟨Cert.KernelIdeal.S64, .f32⟩ : BufTy).Contents (Elt Ideal)) :
    nodeArray (truncf (F := Ideal) .bf16 x0 Cert.KernelIdeal.Facts₀.bitsLt_bf16_f32)
        (summed x2 (edgeArray (bothEndpoints x0 x1 x2) x3
        (extractStridedSlice Cert.KernelIdeal.S128x128 ![0, 0] x4 Cert.KernelIdeal.Facts₀.slices_S160x128_S128x128_0_0)
        (extractStridedSlice Cert.KernelIdeal.S32x128 ![128, 0] x4 Cert.KernelIdeal.Facts₀.slices_S160x128_S32x128_128_0)
        (shapeCast Cert.KernelIdeal.S1x128 x5 Cert.KernelIdeal.Facts₀.shapeCasts_S128_S1x128) x6 (shapeCast Cert.KernelIdeal.S1x64 x7 Cert.KernelIdeal.Facts₀.shapeCasts_S64_S1x64)))
        (extractStridedSlice Cert.KernelIdeal.S64x128 ![0, 0] x8 Cert.KernelIdeal.Facts₀.slices_S128x128_S64x128_0_0)
        (extractStridedSlice Cert.KernelIdeal.S64x128 ![64, 0] x8 Cert.KernelIdeal.Facts₀.slices_S128x128_S64x128_64_0)
        (shapeCast Cert.KernelIdeal.S1x128 x9 Cert.KernelIdeal.Facts₀.shapeCasts_S128_S1x128) x10 (shapeCast Cert.KernelIdeal.S1x64 x11 Cert.KernelIdeal.Facts₀.shapeCasts_S64_S1x64)
      = val_main_v36 (F := Ideal) x0 x1 x2 x3 x4 x5 x6 x7 x8 x9 x10 x11 := by
  rw [summed_eq]
  funext i
  obtain ⟨n, j, rfl⟩ : ∃ (n : Fin 50000) (j : Fin 64), i = ix2 n j := ⟨i 0, i 1, eq_ix2 i⟩
  rw [node_apply]
  unfold nodeArray
  refine twoBand_eq_oneBand_of (p := 64) (q := 64)
    (fun a => val_main_v27 (F := Ideal) x0 x1 x2 x3 x4 x5 x6 x7 (ix2 n a)) (fun a k => x8 (ix2 a k))
    (fun a => ?_) (fun a => ?_) (fun a k => ?_) (fun a k => ?_) (fun k => ?_) (fun k a => rfl) (fun a => ?_) rfl
  · exact (pair_left x0 (val_main_v26 (F := Ideal) x0 x1 x2 x3 x4 x5 x6 x7) _ n a (Fin.castAdd 64 a) rfl).symm
  · exact (pair_right x0 (val_main_v26 (F := Ideal) x0 x1 x2 x3 x4 x5 x6 x7) _ n a (Fin.natAdd 64 a) rfl).symm
  · exact slice2_axis0_apply 0 x8 _ a k (Fin.castAdd 64 a) (by show a.val = 0 + a.val; omega)
  · exact slice2_axis0_apply 64 x8 _ a k (Fin.natAdd 64 a) rfl
  · exact shapeCast_a_1a_apply x9 _ (0 : Fin 1) k
  · exact shapeCast_a_1a_apply x11 _ (0 : Fin 1) a

end Cert.Bridge

end
-- ==== Proof.lean ====
/-
  A graph-network layer: a per-edge perceptron on the two endpoint rows and the edge features of every edge, the
  messages summed into their target nodes, and a per-node perceptron on the node features and the summed messages.

  The kernel runs each perceptron in a pallas call over row blocks, with the first layer's weight matrix cut into two
  row bands and the two partial products added; the gathers, the sum into the nodes and the cuts are host
  operations around the two calls. The reference runs each perceptron as one product on the joined inputs. At the
  ideal values the two are one function of the twelve argument arrays: the first-layer sum over the joined columns
  splits into the sums over its two bands (commutativity and associativity of addition on the extended reals only:
  no entry need be finite), and every other operation is the same on both sides.

  The three frames are the generated ones (the reference's is its generated run with the result dropped); nothing
  was rewritten by the idealization, so that claim is trivial. The equality of results puts the kernel's run with its
  result named (KerRun), that result as the node perceptron array of the host terms (KerHost over EdgeBlocks and
  NodeBlocks), and the bridge to the reference's stages (Bridge over RefStages) end to end.
-/
import proofs.«113393_j27728308863843_2_alg».proof.Defs
import proofs.«113393_j27728308863843_2_alg».proof.Proof.Gen.Kernel
import proofs.«113393_j27728308863843_2_alg».proof.Proof.Gen.Kernel.Skeleton
import proofs.«113393_j27728308863843_2_alg».proof.Proof.Gen.Kernel.Launch
import proofs.«113393_j27728308863843_2_alg».proof.Proof.Gen.Kernel.Points
import proofs.«113393_j27728308863843_2_alg».proof.Proof.Gen.Kernel.Frame
import proofs.«113393_j27728308863843_2_alg».proof.Proof.Gen.KernelIdeal
import proofs.«113393_j27728308863843_2_alg».proof.Proof.Gen.KernelIdeal.Skeleton
import proofs.«113393_j27728308863843_2_alg».proof.Proof.Gen.KernelIdeal.Launch
import proofs.«113393_j27728308863843_2_alg».proof.Proof.Gen.KernelIdeal.Points
import proofs.«113393_j27728308863843_2_alg».proof.Proof.Gen.KernelIdeal.Frame
import proofs.«113393_j27728308863843_2_alg».proof.Proof.Gen.ReferenceIdeal
import proofs.«113393_j27728308863843_2_alg».proof.Proof.Gen.Pre_finite_inputs
import proofs.«113393_j27728308863843_2_alg».proof.Proof.Gen.ReferenceIdeal.Run
import proofs.«113393_j27728308863843_2_alg».proof.Proof.Gen.ReferenceIdeal.Read
import proofs.«113393_j27728308863843_2_alg».proof.Proof.KerRun
import proofs.«113393_j27728308863843_2_alg».proof.Proof.KerHost
import proofs.«113393_j27728308863843_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the kernel's argument arrays. -/
theorem algebraic : Cert.algebraic_KernelIdeal_ReferenceIdeal := by
  intro m ρ m' ρ' _ hagree
  refine ⟨fun c => Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.Named.run (F := Ideal) m ρ)
    exact (Cert.KernelIdeal.HostSide.node_result m ρ c).trans (Cert.Bridge.node_eq _ _ _ _ _ _ _ _ _ _ _ _)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [h0, h1, h2, h3, h4, h5, h6, h7, h8, h9, h10, h11]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
